-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S64x2048 : Shape := ⟨2, ![64, 2048]⟩
abbrev S11x256 : Shape := ⟨2, ![11, 256]⟩
abbrev S256x1 : Shape := ⟨2, ![256, 1]⟩
abbrev S256 : Shape := ⟨1, ![256]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S11x256 : S_.BroadcastsInDim S11x256 (![] : Fin 0 → Fin S11x256.rank)
  reducesTo_S11x256_S_d0_1 : S11x256.ReducesTo [0, 1] S_
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x2048x256 .f32) (main_arg1 : IVec S64x2048 32) (main_arg2 : FVec F S11x256 .f32) (main_arg3 : FVec F S256x1 .f32) (main_arg4 : FVec F S256 .f32) (main_arg5 : FVec F S256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S11x256 .f32 := Host.absf main_arg2
  let main_cst_0 : FVec F S_ .f32 := constant S_ .f32 0x7F800000#32
  let main_v5 : FVec F S11x256 .f32 := broadcastInDim S11x256 ![] bcast_S_S11x256 main_cst_0
  let main_v6 : IVec S11x256 1 := cmpf .olt main_v4 main_v5
  let main_c_1 : IVec S_ 1 := constantI S_ 1 1#1
  let main_v7 : IVec S_ 1 := (fun x v => Host.reduce IntOp.andi x v reducesTo_S11x256_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S64x2048x256 : Shape := ⟨3, ![64, 2048, 256]⟩
abbrev S64x2048 : Shape := ⟨2, ![64, 2048]⟩
abbrev S11x256 : Shape := ⟨2, ![11, 256]⟩
abbrev S256x1 : Shape := ⟨2, ![256, 1]⟩
abbrev S256 : Shape := ⟨1, ![256]⟩
abbrev S2048 : Shape := ⟨1, ![2048]⟩
abbrev S11 : Shape := ⟨1, ![11]⟩
abbrev S_ : Shape := ⟨0, ![]⟩
abbrev S2048x1 : Shape := ⟨2, ![2048, 1]⟩
abbrev S1x11 : Shape := ⟨2, ![1, 11]⟩
abbrev S2048x11 : Shape := ⟨2, ![2048, 11]⟩
abbrev S2048x256 : Shape := ⟨2, ![2048, 256]⟩
abbrev S1x256 : Shape := ⟨2, ![1, 256]⟩
abbrev S64x128x256 : Shape := ⟨3, ![64, 128, 256]⟩
abbrev S64x128 : Shape := ⟨2, ![64, 128]⟩
abbrev S128x256 : Shape := ⟨2, ![128, 256]⟩
abbrev S8x128x256 : Shape := ⟨3, ![8, 128, 256]⟩
abbrev S8x128 : Shape := ⟨2, ![8, 128]⟩
abbrev S8x128x1 : Shape := ⟨3, ![8, 128, 1]⟩
abbrev S1x1x256 : Shape := ⟨3, ![1, 1, 256]⟩
abbrev S1x128x256 : Shape := ⟨3, ![1, 128, 256]⟩

abbrev nBuf : Space → Nat
  | .hbm => 37
  | .vmem => 11
  | .smem => 0
  | _ => 0

abbrev bufTy : (tb : Table) → Fin (tcTables nBuf tb) → BufTy
  | .hbm, ⟨0, _⟩ => ⟨S64x2048x256, .f32⟩
  | .hbm, ⟨1, _⟩ => ⟨S64x2048, .i32⟩
  | .hbm, ⟨2, _⟩ => ⟨S11x256, .f32⟩
  | .hbm, ⟨3, _⟩ => ⟨S256x1, .f32⟩
  | .hbm, ⟨4, _⟩ => ⟨S256, .f32⟩
  | .hbm, ⟨5, _⟩ => ⟨S256, .f32⟩
  | .hbm, ⟨6, _⟩ => ⟨S2048, .i32⟩
  | .hbm, ⟨7, _⟩ => ⟨S11, .i32⟩
  | .hbm, ⟨8, _⟩ => ⟨S_, .i32⟩
  | .hbm, ⟨9, _⟩ => ⟨S11, .i32⟩
  | .hbm, ⟨10, _⟩ => ⟨S11, .i32⟩
  | .hbm, ⟨11, _⟩ => ⟨S2048x1, .i32⟩
  | .hbm, ⟨12, _⟩ => ⟨S1x11, .i32⟩
  | .hbm, ⟨13, _⟩ => ⟨S2048x11, .i32⟩
  | .hbm, ⟨14, _⟩ => ⟨S2048x11, .i32⟩
  | .hbm, ⟨15, _⟩ => ⟨S2048x11, .i32⟩
  | .hbm, ⟨16, _⟩ => ⟨S1x11, .i32⟩
  | .hbm, ⟨17, _⟩ => ⟨S_, .i32⟩
  | .hbm, ⟨18, _⟩ => ⟨S1x11, .i32⟩
  | .hbm, ⟨19, _⟩ => ⟨S1x11, .i1⟩
  | .hbm, ⟨20, _⟩ => ⟨S_, .i32⟩
  | .hbm, ⟨21, _⟩ => ⟨S2048x11, .i32⟩
  | .hbm, ⟨22, _⟩ => ⟨S2048x11, .i1⟩
  | .hbm, ⟨23, _⟩ => ⟨S2048x11, .i1⟩
  | .hbm, ⟨24, _⟩ => ⟨S2048x11, .i1⟩
  | .hbm, ⟨25, _⟩ => ⟨S_, .i32⟩
  | .hbm, ⟨26, _⟩ => ⟨S2048x11, .i32⟩
  | .hbm, ⟨27, _⟩ => ⟨S2048x11, .i1⟩
  | .hbm, ⟨28, _⟩ => ⟨S2048x11, .i1⟩
  | .hbm, ⟨29, _⟩ => ⟨S2048x11, .f32⟩
  | .hbm, ⟨30, _⟩ => ⟨S2048x256, .f32⟩
  | .hbm, ⟨31, _⟩ => ⟨S_, .f32⟩
  | .hbm, ⟨32, _⟩ => ⟨S2048x256, .f32⟩
  | .hbm, ⟨33, _⟩ => ⟨S2048x256, .f32⟩
  | .hbm, ⟨34, _⟩ => ⟨S256, .f32⟩
  | .hbm, ⟨35, _⟩ => ⟨S1x256, .f32⟩
  | .hbm, ⟨36, _⟩ => ⟨S64x2048x256, .f32⟩
  | .local _ .vmem, ⟨0, _⟩ => ⟨S64x128x256, .f32⟩
  | .local _ .vmem, ⟨1, _⟩ => ⟨S64x128x256, .f32⟩
  | .local _ .vmem, ⟨2, _⟩ => ⟨S64x128, .i32⟩
  | .local _ .vmem, ⟨3, _⟩ => ⟨S64x128, .i32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S256, .f32⟩
  | .local _ .vmem, ⟨8, _⟩ => ⟨S256, .f32⟩
  | .local _ .vmem, ⟨9, _⟩ => ⟨S64x128x256, .f32⟩
  | .local _ .vmem, ⟨10, _⟩ => ⟨S64x128x256, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S11 : S_.BroadcastsInDim S11 (![] : Fin 0 → Fin S11.rank)
  bcast_S2048_S2048x1_0 : S2048.BroadcastsInDim S2048x1 (![0] : Fin 1 → Fin S2048x1.rank)
  bcast_S11_S1x11_1 : S11.BroadcastsInDim S1x11 (![1] : Fin 1 → Fin S1x11.rank)
  bcast_S2048x1_S2048x11_0_1 : S2048x1.BroadcastsInDim S2048x11 (![0, 1] : Fin 2 → Fin S2048x11.rank)
  bcast_S1x11_S2048x11_0_1 : S1x11.BroadcastsInDim S2048x11 (![0, 1] : Fin 2 → Fin S2048x11.rank)
  bcast_S_S1x11 : S_.BroadcastsInDim S1x11 (![] : Fin 0 → Fin S1x11.rank)
  bcast_S_S2048x11 : S_.BroadcastsInDim S2048x11 (![] : Fin 0 → Fin S2048x11.rank)
  bcast_S_S2048x256 : S_.BroadcastsInDim S2048x256 (![] : Fin 0 → Fin S2048x256.rank)
  shapeCasts_S256x1_S256 : S256x1.ShapeCasts S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S256 : S1x256.ShapeCasts S256
  inb_S256_S256_0 : ∀ a, (![0] : Fin 1 → Nat) a + S256.size a ≤ S256.size a
  h_S256 : 0 < S256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x128x256_S8x128x256_0_0_0 : ∀ a, (![0, 0, 0] : Fin 3 → Nat) a + S8x128x256.size a ≤ S64x128x256.size a
  h_S8x128x256 : 0 < S8x128x256.numel
  inb_S64x128_S8x128_0_0 : ∀ a, (![0, 0] : Fin 2 → Nat) a + S8x128.size a ≤ S64x128.size a
  h_S8x128 : 0 < S8x128.numel
  shapeCasts_S8x128_S8x128x1 : S8x128.ShapeCasts S8x128x1
  shapeCasts_S256_S1x1x256 : S256.ShapeCasts S1x1x256
  broadcasts_S8x128x1_S8x128x256 : S8x128x1.Broadcasts S8x128x256
  broadcasts_S1x1x256_S8x128x256 : S1x1x256.Broadcasts S8x128x256
  shapeCasts_S128x256_S1x128x256 : S128x256.ShapeCasts S1x128x256
  broadcasts_S1x128x256_S8x128x256 : S1x128x256.Broadcasts S8x128x256
  reduces_S8x128x256_S8x128 : S8x128x256.Reduces [2] S8x128
  inb_S64x128x256_S8x128x256_8_0_0 : ∀ a, (![8, 0, 0] : Fin 3 → Nat) a + S8x128x256.size a ≤ S64x128x256.size a
  inb_S64x128_S8x128_8_0 : ∀ a, (![8, 0] : Fin 2 → Nat) a + S8x128.size a ≤ S64x128.size a
  inb_S64x128x256_S8x128x256_16_0_0 : ∀ a, (![16, 0, 0] : Fin 3 → Nat) a + S8x128x256.size a ≤ S64x128x256.size a
  inb_S64x128_S8x128_16_0 : ∀ a, (![16, 0] : Fin 2 → Nat) a + S8x128.size a ≤ S64x128.size a
  inb_S64x128x256_S8x128x256_24_0_0 : ∀ a, (![24, 0, 0] : Fin 3 → Nat) a + S8x128x256.size a ≤ S64x128x256.size a
  inb_S64x128_S8x128_24_0 : ∀ a, (![24, 0] : Fin 2 → Nat) a + S8x128.size a ≤ S64x128.size a
  inb_S64x128x256_S8x128x256_32_0_0 : ∀ a, (![32, 0, 0] : Fin 3 → Nat) a + S8x128x256.size a ≤ S64x128x256.size a
  inb_S64x128_S8x128_32_0 : ∀ a, (![32, 0] : Fin 2 → Nat) a + S8x128.size a ≤ S64x128.size a
  inb_S64x128x256_S8x128x256_40_0_0 : ∀ a, (![40, 0, 0] : Fin 3 → Nat) a + S8x128x256.size a ≤ S64x128x256.size a
  inb_S64x128_S8x128_40_0 : ∀ a, (![40, 0] : Fin 2 → Nat) a + S8x128.size a ≤ S64x128.size a
  inb_S64x128x256_S8x128x256_48_0_0 : ∀ a, (![48, 0, 0] : Fin 3 → Nat) a + S8x128x256.size a ≤ S64x128x256.size a
  inb_S64x128_S8x128_48_0 : ∀ a, (![48, 0] : Fin 2 → Nat) a + S8x128.size a ≤ S64x128.size a
  inb_S64x128x256_S8x128x256_56_0_0 : ∀ a, (![56, 0, 0] : Fin 3 → Nat) a + S8x128x256.size a ≤ S64x128x256.size a
  inb_S64x128_S8x128_56_0 : ∀ a, (![56, 0] : Fin 2 → Nat) a + S8x128.size a ≤ S64x128.size a
  dot_S2048x11_S11x256_S2048x256_1_0_0_1_n_n_wf : DotDims.WF S2048x11 S11x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x256.size a ≤ S64x2048x256.size a
  hwx0_0 : ∀ i : grid0.Coords, EltTy.bits .f32 = 32 ∨ (Rect.block (s := S64x2048x256) S64x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x2048.size a
  hwx0_1 : ∀ i : grid0.Coords, EltTy.bits .i32 = 32 ∨ (Rect.block (s := S64x2048) S64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S2048x256.size a
  hwx0_2 : ∀ i : grid0.Coords, EltTy.bits .f32 = 32 ∨ (Rect.block (s := S2048x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128x256.size a ≤ S64x2048x256.size a
  hwx0_6 : ∀ i : grid0.Coords, EltTy.bits .f32 = 32 ∨ (Rect.block (s := S64x2048x256) S64x128x256.size (cc0_transform_6 i) (hinb0_6 i)).WholeWords (EltTy.packing .f32)

variable [Facts₀]

def dot_S2048x11_S11x256_S2048x256_1_0_0_1_n_n : DotDims S2048x11 S11x256 S2048x256 where
  lhsContracting := [1]
  rhsContracting := [0]
  lhsNonContracting := [0]
  rhsNonContracting := [1]
  lhsBatch := []
  rhsBatch := []
  wf := dot_S2048x11_S11x256_S2048x256_1_0_0_1_n_n_wf

abbrev win0_0 : Pipeline.Window sig grid0 :=
  Pipeline.Window.ofSpec (Memref.whole main_arg0) S64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S64x128x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where
  halias0_6 : Pipeline.Aliased win0 0 6

variable [Facts]
-- ==== ReferenceIdeal.lean ====
abbrev S64x2048x256 : Shape := ⟨3, ![64, 2048, 256]⟩
abbrev S64x2048 : Shape := ⟨2, ![64, 2048]⟩
abbrev S11x256 : Shape := ⟨2, ![11, 256]⟩
abbrev S256x1 : Shape := ⟨2, ![256, 1]⟩
abbrev S256 : Shape := ⟨1, ![256]⟩
abbrev S_ : Shape := ⟨0, ![]⟩
abbrev S64x2048x1 : Shape := ⟨3, ![64, 2048, 1]⟩
abbrev S1x1x256 : Shape := ⟨3, ![1, 1, 256]⟩
abbrev S2048 : Shape := ⟨1, ![2048]⟩
abbrev S11 : Shape := ⟨1, ![11]⟩
abbrev S2048x1 : Shape := ⟨2, ![2048, 1]⟩
abbrev S1x11 : Shape := ⟨2, ![1, 11]⟩
abbrev S2048x11 : Shape := ⟨2, ![2048, 11]⟩
abbrev S2048x256 : Shape := ⟨2, ![2048, 256]⟩
abbrev S1x2048x256 : Shape := ⟨3, ![1, 2048, 256]⟩

abbrev nBuf : Space → Nat
  | .hbm => 80
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S64x2048, .i32⟩
  | .hbm, ⟨2, _⟩ => ⟨S11x256, .f32⟩
  | .hbm, ⟨3, _⟩ => ⟨S256x1, .f32⟩
  | .hbm, ⟨4, _⟩ => ⟨S256, .f32⟩
  | .hbm, ⟨5, _⟩ => ⟨S256, .f32⟩
  | .hbm, ⟨6, _⟩ => ⟨S64x2048, .f32⟩
  | .hbm, ⟨7, _⟩ => ⟨S_, .f32⟩
  | .hbm, ⟨8, _⟩ => ⟨S64x2048, .f32⟩
  | .hbm, ⟨9, _⟩ => ⟨S64x2048, .f32⟩
  | .hbm, ⟨10, _⟩ => ⟨S64x2048x1, .f32⟩
  | .hbm, ⟨11, _⟩ => ⟨S256, .f32⟩
  | .hbm, ⟨12, _⟩ => ⟨S1x1x256, .f32⟩
  | .hbm, ⟨13, _⟩ => ⟨S64x2048x256, .f32⟩
  | .hbm, ⟨14, _⟩ => ⟨S64x2048x256, .f32⟩
  | .hbm, ⟨15, _⟩ => ⟨S64x2048x256, .f32⟩
  | .hbm, ⟨16, _⟩ => ⟨S_, .f32⟩
  | .hbm, ⟨17, _⟩ => ⟨S64x2048x256, .f32⟩
  | .hbm, ⟨18, _⟩ => ⟨S64x2048x256, .f32⟩
  | .hbm, ⟨19, _⟩ => ⟨S64x2048x256, .f32⟩
  | .hbm, ⟨20, _⟩ => ⟨S2048, .i32⟩
  | .hbm, ⟨21, _⟩ => ⟨S11, .i32⟩
  | .hbm, ⟨22, _⟩ => ⟨S_, .i32⟩
  | .hbm, ⟨23, _⟩ => ⟨S11, .i32⟩
  | .hbm, ⟨24, _⟩ => ⟨S11, .i32⟩
  | .hbm, ⟨25, _⟩ => ⟨S2048x1, .i32⟩
  | .hbm, ⟨26, _⟩ => ⟨S1x11, .i32⟩
  | .hbm, ⟨27, _⟩ => ⟨S2048x11, .i32⟩
  | .hbm, ⟨28, _⟩ => ⟨S2048x11, .i32⟩
  | .hbm, ⟨29, _⟩ => ⟨S2048x11, .i32⟩
  | .hbm, ⟨30, _⟩ => ⟨S1x11, .i32⟩
  | .hbm, ⟨31, _⟩ => ⟨S_, .i32⟩
  | .hbm, ⟨32, _⟩ => ⟨S1x11, .i32⟩
  | .hbm, ⟨33, _⟩ => ⟨S1x11, .i1⟩
  | .hbm, ⟨34, _⟩ => ⟨S_, .i32⟩
  | .hbm, ⟨35, _⟩ => ⟨S2048x11, .i32⟩
  | .hbm, ⟨36, _⟩ => ⟨S2048x11, .i1⟩
  | .hbm, ⟨37, _⟩ => ⟨S2048x11, .i1⟩
  | .hbm, ⟨38, _⟩ => ⟨S2048x11, .i1⟩
  | .hbm, ⟨39, _⟩ => ⟨S_, .i32⟩
  | .hbm, ⟨40, _⟩ => ⟨S2048x11, .i32⟩
  | .hbm, ⟨41, _⟩ => ⟨S2048x11, .i1⟩
  | .hbm, ⟨42, _⟩ => ⟨S2048x11, .i1⟩
  | .hbm, ⟨43, _⟩ => ⟨S2048x11, .f32⟩
  | .hbm, ⟨44, _⟩ => ⟨S2048x256, .f32⟩
  | .hbm, ⟨45, _⟩ => ⟨S_, .f32⟩
  | .hbm, ⟨46, _⟩ => ⟨S2048x256, .f32⟩
  | .hbm, ⟨47, _⟩ => ⟨S2048x256, .f32⟩
  | .hbm, ⟨48, _⟩ => ⟨S1x2048x256, .f32⟩
  | .hbm, ⟨49, _⟩ => ⟨S64x2048x256, .f32⟩
  | .hbm, ⟨50, _⟩ => ⟨S64x2048x256, .f32⟩
  | .hbm, ⟨51, _⟩ => ⟨S_, .f32⟩
  | .hbm, ⟨52, _⟩ => ⟨S64x2048, .f32⟩
  | .hbm, ⟨53, _⟩ => ⟨S64x2048x1, .f32⟩
  | .hbm, ⟨54, _⟩ => ⟨S_, .f32⟩
  | .hbm, ⟨55, _⟩ => ⟨S64x2048x1, .f32⟩
  | .hbm, ⟨56, _⟩ => ⟨S64x2048x1, .f32⟩
  | .hbm, ⟨57, _⟩ => ⟨S64x2048x256, .f32⟩
  | .hbm, ⟨58, _⟩ => ⟨S64x2048x256, .f32⟩
  | .hbm, ⟨59, _⟩ => ⟨S64x2048x256, .f32⟩
  | .hbm, ⟨60, _⟩ => ⟨S_, .f32⟩
  | .hbm, ⟨61, _⟩ => ⟨S64x2048, .f32⟩
  | .hbm, ⟨62, _⟩ => ⟨S64x2048x1, .f32⟩
  | .hbm, ⟨63, _⟩ => ⟨S_, .f32⟩
  | .hbm, ⟨64, _⟩ => ⟨S64x2048x1, .f32⟩
  | .hbm, ⟨65, _⟩ => ⟨S64x2048x1, .f32⟩
  | .hbm, ⟨66, _⟩ => ⟨S64x2048x256, .f32⟩
  | .hbm, ⟨67, _⟩ => ⟨S64x2048x256, .f32⟩
  | .hbm, ⟨68, _⟩ => ⟨S_, .f32⟩
  | .hbm, ⟨69, _⟩ => ⟨S64x2048x1, .f32⟩
  | .hbm, ⟨70, _⟩ => ⟨S64x2048x1, .f32⟩
  | .hbm, ⟨71, _⟩ => ⟨S64x2048x1, .f32⟩
  | .hbm, ⟨72, _⟩ => ⟨S64x2048x256, .f32⟩
  | .hbm, ⟨73, _⟩ => ⟨S64x2048x256, .f32⟩
  | .hbm, ⟨74, _⟩ => ⟨S1x1x256, .f32⟩
  | .hbm, ⟨75, _⟩ => ⟨S64x2048x256, .f32⟩
  | .hbm, ⟨76, _⟩ => ⟨S64x2048x256, .f32⟩
  | .hbm, ⟨77, _⟩ => ⟨S1x1x256, .f32⟩
  | .hbm, ⟨78, _⟩ => ⟨S64x2048x256, .f32⟩
  | .hbm, ⟨79, _⟩ => ⟨S64x2048x256, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  shapeCasts_S256x1_S256 : S256x1.ShapeCasts S256
  bcast_S256_S1x1x256_2 : S256.BroadcastsInDim S1x1x256 (![2] : Fin 1 → Fin S1x1x256.rank)
  bcast_S64x2048x1_S64x2048x256_0_1_2 : S64x2048x1.BroadcastsInDim S64x2048x256 (![0, 1, 2] : Fin 3 → Fin S64x2048x256.rank)
  bcast_S1x1x256_S64x2048x256_0_1_2 : S1x1x256.BroadcastsInDim S64x2048x256 (![0, 1, 2] : Fin 3 → Fin S64x2048x256.rank)
  bcast_S_S64x2048x256 : S_.BroadcastsInDim S64x2048x256 (![] : Fin 0 → Fin S64x2048x256.rank)
  bcast_S_S11 : S_.BroadcastsInDim S11 (![] : Fin 0 → Fin S11.rank)
  bcast_S2048_S2048x1_0 : S2048.BroadcastsInDim S2048x1 (![0] : Fin 1 → Fin S2048x1.rank)
  bcast_S11_S1x11_1 : S11.BroadcastsInDim S1x11 (![1] : Fin 1 → Fin S1x11.rank)
  bcast_S2048x1_S2048x11_0_1 : S2048x1.BroadcastsInDim S2048x11 (![0, 1] : Fin 2 → Fin S2048x11.rank)
  bcast_S1x11_S2048x11_0_1 : S1x11.BroadcastsInDim S2048x11 (![0, 1] : Fin 2 → Fin S2048x11.rank)
  bcast_S_S1x11 : S_.BroadcastsInDim S1x11 (![] : Fin 0 → Fin S1x11.rank)
  bcast_S_S2048x11 : S_.BroadcastsInDim S2048x11 (![] : Fin 0 → Fin S2048x11.rank)
  bcast_S_S2048x256 : S_.BroadcastsInDim S2048x256 (![] : Fin 0 → Fin S2048x256.rank)
  bcast_S2048x256_S1x2048x256_1_2 : S2048x256.BroadcastsInDim S1x2048x256 (![1, 2] : Fin 2 → Fin S1x2048x256.rank)
  bcast_S1x2048x256_S64x2048x256_0_1_2 : S1x2048x256.BroadcastsInDim S64x2048x256 (![0, 1, 2] : Fin 3 → Fin S64x2048x256.rank)
  reducesTo_S64x2048x256_S64x2048_d2 : S64x2048x256.ReducesTo [2] S64x2048
  h_S_ : 0 < S_.numel
  bcast_S_S64x2048x1 : S_.BroadcastsInDim S64x2048x1 (![] : Fin 0 → Fin S64x2048x1.rank)
  dot_S2048x11_S11x256_S2048x256_1_0_0_1_n_n_wf : DotDims.WF S2048x11 S11x256 S2048x256 [1] [0] [0] [1] [] []

variable [Facts₀]

def dot_S2048x11_S11x256_S2048x256_1_0_0_1_n_n : DotDims S2048x11 S11x256 S2048x256 where
  lhsContracting := [1]
  rhsContracting := [0]
  lhsNonContracting := [0]
  rhsNonContracting := [1]
  lhsBatch := []
  rhsBatch := []
  wf := dot_S2048x11_S11x256_S2048x256_1_0_0_1_n_n_wf

class Facts : Prop extends Facts₀ where

variable [Facts]
-- ==== Proof.Norm.lean ====
/-
  The mathematics both programs compute, on the extended reals.

  A row x of 256 entries is built entry by entry as  e + 0.3 · ((r · s) · w) + b : an embedding entry e, a response r
  (an integer read as a real) scaled by s, a weight w, and a positional bias b.  The row is then normalized:
  with  μ = (Σ x) / 256  and  σ² = (Σ (x − μ)²) / 256 , entry d becomes  (x d − μ) · (σ² + ε)^(−1/2) · γ + β .
  The float literals 0.3, 256 and ε are kept as the single-precision words the programs spell; the same word reads the
  same on both sides and is never evaluated.

  The one place the two programs differ is the response scale: one multiplies by the word of 0.25, the other divides
  by the word of 4.  The word of 4 denotes the real 4, the word of 0.25 the real 1/4, and a quotient by a nonzero real is
  the product with its reciprocal on every extended real, the infinities included.
-/
import Idealize.ShloMosaic.PureOps.Ideal

noncomputable section

open scoped BigOperators

namespace Cert.Norm

open Idealize.ShloMosaic

/-- One entry of a row before normalization. -/
def shifted (e r s w b : EReal) : EReal :=
  e + Ideal.ofBits .f32 0x3E99999A#32 * ((r * s) * w) + b

/-- The mean of 256 entries. -/
def mean (x : Fin 256 → EReal) : EReal :=
  Ideal.div (∑ k : Fin 256, x k) (Ideal.ofBits .f32 0x43800000#32)

/-- Entry `d` of the normalized row, scaled by `g` and shifted by `b`. -/
def normalized (x : Fin 256 → EReal) (g b : EReal) (d : Fin 256) : EReal :=
  (x d - mean x) * Ideal.rsqrt (mean (fun k => (x k - mean x) * (x k - mean x)) + Ideal.ofBits .f32 0x3727C5AC#32) * g + b

/-- The single-precision word of 4 denotes the real 4. -/
theorem ofBits_four : Ideal.ofBits .f32 0x40800000#32 = ((4 : ℝ) : EReal) := by
  simp [Ideal.ofBits, Ideal.ieee, -EReal.coe_mul]; norm_num

/-- The single-precision word of 0.25 denotes the real 1/4. -/
theorem ofBits_quarter : Ideal.ofBits .f32 0x3E800000#32 = ((1 / 4 : ℝ) : EReal) := by
  simp [Ideal.ofBits, Ideal.ieee, -EReal.coe_mul]; norm_num

/-- Dividing by the word of 4 is multiplying by the word of 0.25, on every extended real. -/
theorem div_four (r : EReal) :
    Ideal.div r (Ideal.ofBits .f32 0x40800000#32) = r * Ideal.ofBits .f32 0x3E800000#32 := by
  rw [ofBits_four, ofBits_quarter]
  exact Ideal.div_coe (by norm_num : (4 : ℝ) ≠ 0) r

end Cert.Norm

end
-- ==== Proof.LibBlocks.lean ====
/-
  Blocks of rank two and three read at an index: the unit axes a vector kernel adds and drops around its stores,
  the two broadcasts that fill a rank-three block from a matrix of rows or from a matrix with a trailing unit axis, the
  host's placement of a rank-three array into a rank-four one with a unit axis in second place, a load of one column
  of a matrix, and where an index of a rank-three block lies relative to a slab cut along the last axis. Each is the
  general "same row-major position" or "trailing coordinates" reading of the operation, with both indices written out
  by coordinates; the extents are free.
-/
import Idealize.ShloMosaic.Lib.ValueLayout

namespace Cert.LibBlocks

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array cast to `[a, b]` reads, at `(p, q)`, the operand at `(p, 0, q)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- A `[1, b, c]` array broadcast to `[a, b, c]` reads, at `(p, q, k)`, the operand's one matrix at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, b, c]` array placed on axes 0, 2, 3 of an `[a, 1, b, c]` array reads, at `(p, u, q, k)`, the operand at
    `(p, q, k)`. -/
theorem broadcastInDim_abc_a1bc_apply {a b c : ℕ} (x : (⟨3, ![a, b, c]⟩ : Shape).Idx → α)
    (h : (⟨3, ![a, b, c]⟩ : Shape).BroadcastsInDim ⟨4, ![a, 1, b, c]⟩ ![0, 2, 3])
    (p : Fin a) (u : Fin 1) (q : Fin b) (k : Fin c) :
    broadcastInDim ⟨4, ![a, 1, b, c]⟩ ![0, 2, 3] h x (ix4 p u q k) = x (ix3 p q k) := by
  refine broadcastInDim_apply ![0, 2, 3] h x (ix4 p u q k) (ix3 p q k) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show k.val = if c = 1 then 0 else k.val
    split
    · have := k.isLt; omega
    · rfl

section Loads

variable {Val : EltTy → Type} {e : EltTy}

/-- A load of column `j` of an `[a, b]` block, as an `[a, 1]` column, reads at `(p, u)` the block at `(p, j)`. -/
theorem ld_col_apply {a b : ℕ} (X : (⟨2, ![a, b]⟩ : Shape).Idx → Val e) (j : ℕ) (hj : j < b)
    (inb : ∀ ax, (![0, j] : Fin 2 → ℕ) ax + (![a, 1] : Fin 2 → ℕ) ax ≤ (⟨2, ![a, b]⟩ : Shape).size ax)
    (p : Fin a) (u : Fin 1) :
    View.ld X (Rect.unit ![0, j] ![a, 1] inb) (ix2 p u) = X (ix2 p ⟨j, hj⟩) := by
  show X _ = X _
  congr 1
  funext ax
  apply Fin.ext
  match ax with
  | ⟨0, _⟩ => show 0 + 1 * p.val = p.val; omega
  | ⟨1, _⟩ => show j + 1 * u.val = j; omega

end Loads

/-- The slab of an `[a, b, c]` block that keeps the first two axes whole and takes `n` consecutive coordinates from
    `o` on the last: its own index `(p, q, k')` sits at `(p, q, o + k')` of the block. -/
theorem slab_emb {a b c n o : ℕ}
    (inb : ∀ ax, (![0, 0, o] : Fin 3 → ℕ) ax + (![a, b, n] : Fin 3 → ℕ) ax ≤ (⟨3, ![a, b, c]⟩ : Shape).size ax)
    (p : Fin a) (q : Fin b) (k' : Fin n) (hk : o + k'.val < c) :
    (Rect.unit (s := ⟨3, ![a, b, c]⟩) ![0, 0, o] ![a, b, n] inb).emb (ix3 p q k') = ix3 p q ⟨o + k'.val, hk⟩ := by
  funext ax
  apply Fin.ext
  match ax with
  | ⟨0, _⟩ => show 0 + 1 * p.val = p.val; omega
  | ⟨1, _⟩ => show 0 + 1 * q.val = q.val; omega
  | ⟨2, _⟩ => show o + 1 * k'.val = o + k'.val; omega

/-- An index whose last coordinate is before the slab's first or at or past its end is not in the slab. -/
theorem not_mem_slab {a b c n o : ℕ}
    (inb : ∀ ax, (![0, 0, o] : Fin 3 → ℕ) ax + (![a, b, n] : Fin 3 → ℕ) ax ≤ (⟨3, ![a, b, c]⟩ : Shape).size ax)
    (p : Fin a) (q : Fin b) (k : Fin c) (hk : k.val < o ∨ o + n ≤ k.val) :
    ix3 p q k ∉ (Rect.unit (s := ⟨3, ![a, b, c]⟩) ![0, 0, o] ![a, b, n] inb).set := by
  rw [Rect.mem_set_unit]
  intro hm
  have h2 := hm (⟨2, (by show 2 < 3; omega)⟩ : Fin (⟨3, ![a, b, c]⟩ : Shape).rank)
  change o ≤ k.val ∧ k.val < o + n at h2
  omega

end Cert.LibBlocks
-- ==== Proof.LibLastSum.lean ====
/-
  Two readings at an entry, general in the extents: a sum along the last axis of a rank-three block, and a band of
  consecutive rows sliced out of a matrix.

  A sum along axis 2 of an [a, b, c] block is, at (p, q), the sum over k < c of the entries (p, q, k): a kernel takes
  it as a reduction whose accumulator is the neutral zero, which the reading drops.  The band of a' rows starting at
  row o of an [a, b] matrix has, at (p, q), the matrix's entry (o + p, q).
-/
import Idealize.ShloMosaic.Lib.ValueLayout
import Idealize.ShloMosaic.Lib.Pipeline.Value
import Idealize.ShloMosaic.PureOps.Ideal.Laws

open scoped BigOperators

namespace Cert.LibLastSum

open Idealize.ShloMosaic Idealize.ShloMosaic.ValueIdx

/-- The source index a sum along the last axis of an [a, b, c] block inserts over (p, q) at coordinate k is (p, q, k). -/
theorem lift_last {a b c : ℕ} (h : (⟨3, ![a, b, c]⟩ : Shape).Reduces [2] ⟨2, ![a, b]⟩) (p : Fin a) (q : Fin b) (k : Fin c) :
    h.lift (ix2 p q) k = ix3 p q k := by
  funext d
  apply Fin.ext
  match d with
  | ⟨0, _⟩ => rfl
  | ⟨1, _⟩ => rfl
  | ⟨2, _⟩ => rfl

/-- A sum along the last axis of an [a, b, c] block reads, at (p, q), the sum over k of the entries (p, q, k). -/
theorem lastSum_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  show (∑ k : Fin c, src (h.lift (ix2 p q) k)) = _
  exact Finset.sum_congr rfl fun k _ => congrArg src (lift_last h p q k)

/-- The band of a' rows starting at row o of an [a, b] matrix reads, at (p, q), the matrix at (o + p, q). -/
theorem slice_rows_apply {α : Type} {a a' b : ℕ} (o : ℕ) (x : (⟨2, ![a, b]⟩ : Shape).Idx → α)
    (h : (⟨2, ![a, b]⟩ : Shape).Slices ![o, 0] ⟨2, ![a', b]⟩) (p : Fin a') (q : Fin b) (p' : Fin a)
    (hp : p'.val = o + p.val) :
    extractStridedSlice ⟨2, ![a', b]⟩ ![o, 0] x h (ix2 p q) = x (ix2 p' q) := by
  refine extractStridedSlice_apply ![o, 0] x h (ix2 p q) (ix2 p' q) fun ax => ?_
  match ax with
  | ⟨0, _⟩ =>
    show p'.val = o + p.val
    exact hp
  | ⟨1, _⟩ =>
    show q.val = 0 + q.val
    omega

end Cert.LibLastSum
-- ==== Proof.LibFeatureBlocks.lean ====
/-
  Two more readings of a rank-three block at an index, and where a band of leading rows sits, general in the extents.

  A feature vector of length c is spread over an [a, b, c] block in two steps: it is viewed as a [1, 1, c] array, which
  is then repeated along the two leading axes; at (p, q, k) the block holds the vector's entry k.  A band of n
  consecutive leading rows starting at row o of an [a, b, c] block (or of an [a, b] matrix) keeps the trailing axes
  whole: its own index (p, q, k) sits at (o + p, q, k) of the block.
-/
import Idealize.ShloMosaic.Lib.ValueLayout

namespace Cert.LibFeatureBlocks

open Idealize.ShloMosaic Idealize.ShloMosaic.ValueIdx

variable {α : Type}

/-- A `[c]` vector cast to `[1, 1, c]` reads, at `(u, v, k)`, the vector at `k`, whatever the unit coordinates. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp only [Nat.zero_mul, Nat.zero_add])

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The band of `n` leading rows from row `o` of an `[a, b, c]` block: its index `(p, q, k)` sits at `(o + p, q, k)`. -/
theorem lead_band3_emb {a b c n o : ℕ}
    (inb : ∀ ax, (![o, 0, 0] : Fin 3 → ℕ) ax + (![n, b, c] : Fin 3 → ℕ) ax ≤ (⟨3, ![a, b, c]⟩ : Shape).size ax)
    (p : Fin n) (q : Fin b) (k : Fin c) (hp : o + p.val < a) :
    (Rect.unit (s := ⟨3, ![a, b, c]⟩) ![o, 0, 0] ![n, b, c] inb).emb (ix3 p q k) = ix3 ⟨o + p.val, hp⟩ q k := by
  funext ax
  apply Fin.ext
  match ax with
  | ⟨0, _⟩ => show o + 1 * p.val = o + p.val; omega
  | ⟨1, _⟩ => show 0 + 1 * q.val = q.val; omega
  | ⟨2, _⟩ => show 0 + 1 * k.val = k.val; omega

/-- The band of `n` leading rows from row `o` of an `[a, b]` matrix: its index `(p, q)` sits at `(o + p, q)`. -/
theorem lead_band2_emb {a b n o : ℕ}
    (inb : ∀ ax, (![o, 0] : Fin 2 → ℕ) ax + (![n, b] : Fin 2 → ℕ) ax ≤ (⟨2, ![a, b]⟩ : Shape).size ax)
    (p : Fin n) (q : Fin b) (hp : o + p.val < a) :
    (Rect.unit (s := ⟨2, ![a, b]⟩) ![o, 0] ![n, b] inb).emb (ix2 p q) = ix2 ⟨o + p.val, hp⟩ q := by
  funext ax
  apply Fin.ext
  match ax with
  | ⟨0, _⟩ => show o + 1 * p.val = o + p.val; omega
  | ⟨1, _⟩ => show 0 + 1 * q.val = q.val; omega

end Cert.LibFeatureBlocks
-- ==== Proof.Band.lean ====
/-
  One band of eight batch rows of a block, read at an entry.

  The kernel's body walks a [64, 128, 256] block in eight bands of eight batch rows.  For each band it loads the band's
  embeddings e [8, 128, 256] and responses r [8, 128], forms the row
      x(p, q, ·) = e(p, q, ·) + 0.3 · ((r(p, q) · 0.25) · w(·)) + bias(q, ·)
  and stores its normalization  (x − μ) · (σ² + ε)^(−1/2) · γ + β  over the last axis.  The program text cuts this
  computation at different places for different bands, but each band is the same function of its loads; this module
  says so, and reads that function at an entry (p, q, k): the row sums as sums over the 256 features, the unit axes and
  broadcasts as the coordinates they keep.
-/
import proofs.«165619_j77876347011121_2_alg».proof.Proof.Gen.KernelIdeal.Skeleton
import proofs.«165619_j77876347011121_2_alg».proof.Proof.Norm
import proofs.«165619_j77876347011121_2_alg».proof.Proof.LibBlocks
import proofs.«165619_j77876347011121_2_alg».proof.Proof.LibLastSum
import proofs.«165619_j77876347011121_2_alg».proof.Proof.LibFeatureBlocks
import Idealize.ShloMosaic.Lib.ValueIdx
import Idealize.ShloMosaic.Lib.ValueLayout
import Idealize.ShloMosaic.PureOps.Ideal.Laws

noncomputable section

open scoped BigOperators

namespace Cert.KernelIdeal.Band

open Cert.KernelIdeal Cert.KernelIdeal.Gen Idealize.ShloMosaic Idealize.ShloMosaic.ValueIdx

/-! ## Every band is one function of its loads -/

section Same

variable {F : FTy → Type} [FloatOps F]

/-- The normalization of a band applied to the sum of its shifted embeddings and its bias is the band's whole function. -/
theorem split_eq (w : FVec F S256 .f32) (g b : Vec F S256 .f32) (bias : FVec F S128x256 .f32)
    (e : Vec F S8x128x256 .f32) (r : Vec F S8x128 .i32) :
    k0_pay6 w g b bias e r = k0_pay1 g b (k0_pay14 w e r) (k0_pay15 bias) := rfl

/-- The first band: its shift by β is cut off from the rest. -/
theorem band0_eq (x3 : Vec F S1x256 .f32) (g b : Vec F S256 .f32) (x2 : Vec F S128x256 .f32)
    (e : Vec F S8x128x256 .f32) (r : Vec F S8x128 .i32) :
    k0_pay5 b (k0_pay4 x3 g x2 e r) = k0_pay6 (k0_pay2 x3) g b (k0_pay3 x2) e r := rfl

theorem band2_eq (w : FVec F S256 .f32) (g b : Vec F S256 .f32) (bias : FVec F S128x256 .f32)
    (e : Vec F S8x128x256 .f32) (r : Vec F S8x128 .i32) :
    k0_pay7 w g b bias e r = k0_pay6 w g b bias e r := rfl

theorem band3_eq (w : FVec F S256 .f32) (g b : Vec F S256 .f32) (bias : FVec F S128x256 .f32)
    (e : Vec F S8x128x256 .f32) (r : Vec F S8x128 .i32) :
    k0_pay8 w g b bias e r = k0_pay6 w g b bias e r := rfl

theorem band4_eq (w : FVec F S256 .f32) (g b : Vec F S256 .f32) (bias : FVec F S128x256 .f32)
    (e : Vec F S8x128x256 .f32) (r : Vec F S8x128 .i32) :
    k0_pay9 w g b bias e r = k0_pay6 w g b bias e r := rfl

/-- The sixth band: its scaled responses are cut off from the rest. -/
theorem band5_eq (w : FVec F S256 .f32) (g b : Vec F S256 .f32) (bias : FVec F S128x256 .f32)
    (e : Vec F S8x128x256 .f32) (r : Vec F S8x128 .i32) :
    k0_pay11 w g b bias e (k0_pay10 r) = k0_pay6 w g b bias e r := rfl

/-- The seventh band: the product of its scaled responses with the weights, and the literal 0.3, are cut off. -/
theorem band6_eq (w : FVec F S256 .f32) (g b : Vec F S256 .f32) (bias : FVec F S128x256 .f32)
    (e : Vec F S8x128x256 .f32) (r : Vec F S8x128 .i32) :
    k0_pay13 g b bias e (k0_pay12 w r) (Scalar.ofBits .f32 0x3E99999A#32) = k0_pay6 w g b bias e r := rfl

end Same

/-! ## The band's function at an entry -/

/-- The mean of each row of an [8, 128, 256] block, kept as an [8, 128, 1] column. -/
theorem rowMean_apply (x : FVec Ideal S8x128x256 .f32) (p : Fin 8) (q : Fin 128) (u : Fin 1) :
    divf (shapeCast S8x128x1 (multiReduction .add [2] S8x128 x 0x00000000#32 reduces_S8x128x256_S8x128 (.inl rfl) rfl)
        shapeCasts_S8x128_S8x128x1) (broadcast S8x128x1 (Scalar.ofBits .f32 0x43800000#32)) (ix3 p q u)
      = Norm.mean (fun k => x (ix3 p q k)) := by
  refine (divf_apply _ _ _).trans ?_
  unfold Norm.mean
  refine congrArg₂ Ideal.div ?_ rfl
  refine (LibBlocks.shapeCast_ab_ab1_apply _ _ p q u).trans ?_
  exact LibLastSum.lastSum_apply x _ _ _ _ p q

/-- A feature vector spread over the band reads its entry `k`. -/
theorem feature_apply (v : FVec Ideal S256 .f32) (p : Fin 8) (q : Fin 128) (k : Fin 256) :
    broadcastTo S8x128x256 (shapeCast S1x1x256 v shapeCasts_S256_S1x1x256) broadcasts_S1x1x256_S8x128x256 (ix3 p q k)
      = v (ix1 k) :=
  (LibFeatureBlocks.broadcastTo_11c_abc_apply _ _ p q k).trans (LibFeatureBlocks.shapeCast_c_11c_apply v _ 0 0 k)

/-- A per-row column spread over the band reads the row's value. -/
theorem column_apply (v : FVec Ideal S8x128x1 .f32) (p : Fin 8) (q : Fin 128) (k : Fin 256) :
    broadcastTo S8x128x256 v broadcasts_S8x128x1_S8x128x256 (ix3 p q k) = v (ix3 p q (0 : Fin 1)) :=
  LibBlocks.broadcastTo_ab1_abc_apply v _ p q k

/-- The normalization of the sum of two blocks, at an entry. -/
theorem normalize_apply (g b : Vec Ideal S256 .f32) (x y : FVec Ideal S8x128x256 .f32)
    (p : Fin 8) (q : Fin 128) (k : Fin 256) :
    k0_pay1 (F := Ideal) g b x y (ix3 p q k)
      = Norm.normalized (fun k' => x (ix3 p q k') + y (ix3 p q k')) (g (ix1 k)) (b (ix1 k)) k := by
  unfold k0_pay1 Norm.normalized
  refine (addf_apply _ _ _).trans ?_
  refine congrArg₂ (· + ·) ?_ (feature_apply b p q k)
  refine (mulf_apply _ _ _).trans ?_
  refine congrArg₂ (· * ·) ?_ (feature_apply g p q k)
  refine (mulf_apply _ _ _).trans ?_
  have hμ : ∀ k' : Fin 256, subf (addf x y) (broadcastTo S8x128x256 (divf (shapeCast S8x128x1
        (multiReduction .add [2] S8x128 (addf x y) 0x00000000#32 reduces_S8x128x256_S8x128 (.inl rfl) rfl)
        shapeCasts_S8x128_S8x128x1) (broadcast S8x128x1 (Scalar.ofBits .f32 0x43800000#32)))
        broadcasts_S8x128x1_S8x128x256) (ix3 p q k')
      = (x (ix3 p q k') + y (ix3 p q k')) - Norm.mean (fun k'' => x (ix3 p q k'') + y (ix3 p q k'')) := fun k' =>
    (subf_apply _ _ _).trans (congrArg₂ (· - ·) rfl
      ((column_apply _ p q k').trans (rowMean_apply (addf x y) p q 0)))
  refine congrArg₂ (· * ·) (hμ k) ?_
  refine (column_apply _ p q k).trans ?_
  show Ideal.rsqrt (_ + _) = Ideal.rsqrt (_ + _)
  refine congrArg Ideal.rsqrt (congrArg₂ (· + ·) ?_ rfl)
  refine (rowMean_apply _ p q 0).trans ?_
  refine congrArg Norm.mean (funext fun k' => ?_)
  exact (mulf_apply _ _ _).trans (congrArg₂ (· * ·) (hμ k') (hμ k'))

/-- The shifted embeddings of a band, at an entry. -/
theorem shift_apply (w : FVec Ideal S256 .f32) (e : Vec Ideal S8x128x256 .f32) (r : Vec Ideal S8x128 .i32)
    (p : Fin 8) (q : Fin 128) (k : Fin 256) :
    k0_pay14 (F := Ideal) w e r (ix3 p q k)
      = e (ix3 p q k) + Ideal.ofBits .f32 0x3E99999A#32
          * ((FloatOps.sitofp (F := Ideal) .f32 (r (ix2 p q)) * Ideal.ofBits .f32 0x3E800000#32) * w (ix1 k)) := by
  unfold k0_pay14
  refine (addf_apply _ _ _).trans (congrArg₂ (· + ·) rfl ?_)
  refine (mulf_apply _ _ _).trans (congrArg₂ (· * ·) rfl ?_)
  refine (mulf_apply _ _ _).trans (congrArg₂ (· * ·) ?_ (feature_apply w p q k))
  refine (column_apply _ p q k).trans ?_
  exact LibBlocks.shapeCast_ab_ab1_apply _ _ p q 0

/-- The positional bias repeated over the band's eight batch rows, at an entry. -/
theorem bias_apply (bias : FVec Ideal S128x256 .f32) (p : Fin 8) (q : Fin 128) (k : Fin 256) :
    k0_pay15 (F := Ideal) bias (ix3 p q k) = bias (ix2 q k) := by
  unfold k0_pay15
  exact (LibBlocks.broadcastTo_1bc_abc_apply _ _ p q k).trans (shapeCast_ab_1ab_apply bias _ 0 q k)

/-- THE BAND AT AN ENTRY: the normalized row of shifted embeddings plus bias. -/
theorem band_apply (w : FVec Ideal S256 .f32) (g b : Vec Ideal S256 .f32) (bias : FVec Ideal S128x256 .f32)
    (e : Vec Ideal S8x128x256 .f32) (r : Vec Ideal S8x128 .i32) (p : Fin 8) (q : Fin 128) (k : Fin 256) :
    k0_pay6 (F := Ideal) w g b bias e r (ix3 p q k)
      = Norm.normalized (fun k' => Norm.shifted (e (ix3 p q k')) (FloatOps.sitofp (F := Ideal) .f32 (r (ix2 p q)))
          (Ideal.ofBits .f32 0x3E800000#32) (w (ix1 k')) (bias (ix2 q k'))) (g (ix1 k)) (b (ix1 k)) k := by
  rw [split_eq]
  refine (normalize_apply g b _ _ p q k).trans ?_
  refine congrArg (fun f => Norm.normalized f (g (ix1 k)) (b (ix1 k)) k) (funext fun k' => ?_)
  unfold Norm.shifted
  exact congrArg₂ (· + ·) (shift_apply w e r p q k') (bias_apply bias p q k')

end Cert.KernelIdeal.Band

end
-- ==== Proof.Block.lean ====
/-
  What the body leaves in the output block, as one function of the input blocks.

  The body stores eight bands of eight batch rows, band c into rows 8c … 8c + 7 of the [64, 128, 256] output block,
  each band computed from the same rows of the embeddings block and of the responses block, and from the whole bias
  block, weight row, γ and β.  So the block after the body holds, at (b, q, k), the normalized row (b, q) of shifted
  embeddings plus bias: every stored band is that one function restricted to its rows, and the bands tile the block.
-/
import proofs.«165619_j77876347011121_2_alg».proof.Proof.Gen.KernelIdeal.Frame
import proofs.«165619_j77876347011121_2_alg».proof.Proof.Band
import Idealize.ShloMosaic.Lib.Pipeline.Value

noncomputable section

namespace Cert.KernelIdeal.Block

open Cert.KernelIdeal Cert.KernelIdeal.Gen Idealize.ShloMosaic Idealize.ShloMosaic.ValueIdx

/-- Entry (b, q, k) of the output block from the six input blocks. -/
def blockEntry (x0 : Vec Ideal S64x128x256 .f32) (x1 : Vec Ideal S64x128 .i32) (x2 : Vec Ideal S128x256 .f32)
    (x3 : Vec Ideal S1x256 .f32) (x4 x5 : Vec Ideal S256 .f32) (b : Fin 64) (q : Fin 128) (k : Fin 256) : EReal :=
  Norm.normalized (fun k' => Norm.shifted (x0 (ix3 b q k')) (FloatOps.sitofp (F := Ideal) .f32 (x1 (ix2 b q)))
      (Ideal.ofBits .f32 0x3E800000#32) (x3 (ix2 (0 : Fin 1) k')) (x2 (ix2 q k'))) (x4 (ix1 k)) (x5 (ix1 k)) k

/-- The output block as a function of its index. -/
def blockOut (x0 : Vec Ideal S64x128x256 .f32) (x1 : Vec Ideal S64x128 .i32) (x2 : Vec Ideal S128x256 .f32)
    (x3 : Vec Ideal S1x256 .f32) (x4 x5 : Vec Ideal S256 .f32) : Vec Ideal S64x128x256 .f32 :=
  fun y => blockEntry x0 x1 x2 x3 x4 x5 (y 0) (y 1) (y 2)

theorem hz1 : (![0] : Fin 1 → Nat) = fun _ => 0 := funext fun a => by fin_cases a; rfl
theorem hz2 : (![0, 0] : Fin 2 → Nat) = fun _ => 0 := funext fun a => by fin_cases a <;> rfl

/-- The band stored at rows o … o + 7 is the block's function on those rows. -/
theorem band_piece (o : ℕ) (ho : o + 8 ≤ 64)
    (inb3 : ∀ a, (![o, 0, 0] : Fin 3 → ℕ) a + S8x128x256.size a ≤ S64x128x256.size a)
    (inb2 : ∀ a, (![o, 0] : Fin 2 → ℕ) a + S8x128.size a ≤ S64x128.size a)
    (x0 : Vec Ideal S64x128x256 .f32) (x1 : Vec Ideal S64x128 .i32) (x2 : Vec Ideal S128x256 .f32)
    (x3 : Vec Ideal S1x256 .f32) (x4 x5 : Vec Ideal S256 .f32) (x : S8x128x256.Idx) :
    k0_pay6 (F := Ideal) (k0_pay2 x3) x4 x5 (k0_pay3 x2)
        (View.ld x0 (Rect.unit (s := S64x128x256) ![o, 0, 0] S8x128x256.size inb3))
        (View.ld x1 (Rect.unit (s := S64x128) ![o, 0] S8x128.size inb2)) x
      = blockOut x0 x1 x2 x3 x4 x5 ((Rect.unit (s := S64x128x256) ![o, 0, 0] S8x128x256.size inb3).emb x) := by
  obtain ⟨p, q, k, rfl⟩ : ∃ (p : Fin 8) (q : Fin 128) (k : Fin 256), x = ix3 p q k := ⟨x 0, x 1, x 2, eq_ix3 x⟩
  have hp : o + p.val < 64 := by omega
  have e3 : ∀ k' : Fin 256, (Rect.unit (s := S64x128x256) ![o, 0, 0] S8x128x256.size inb3).emb (ix3 p q k')
      = ix3 (⟨o + p.val, hp⟩ : Fin 64) q k' := fun k' => LibFeatureBlocks.lead_band3_emb inb3 p q k' hp
  have e2 : (Rect.unit (s := S64x128) ![o, 0] S8x128.size inb2).emb (ix2 p q) = ix2 (⟨o + p.val, hp⟩ : Fin 64) q :=
    LibFeatureBlocks.lead_band2_emb inb2 p q hp
  refine (Band.band_apply _ _ _ _ _ _ p q k).trans ?_
  rw [e3 k]
  show _ = blockEntry x0 x1 x2 x3 x4 x5 (⟨o + p.val, hp⟩ : Fin 64) q k
  unfold blockEntry
  refine congrArg (fun f => Norm.normalized f (x4 (ix1 k)) (x5 (ix1 k)) k) (funext fun k' => ?_)
  have h0 : View.ld x0 (Rect.unit (s := S64x128x256) ![o, 0, 0] S8x128x256.size inb3) (ix3 p q k')
      = x0 (ix3 (⟨o + p.val, hp⟩ : Fin 64) q k') := congrArg x0 (e3 k')
  have h1 : View.ld x1 (Rect.unit (s := S64x128) ![o, 0] S8x128.size inb2) (ix2 p q)
      = x1 (ix2 (⟨o + p.val, hp⟩ : Fin 64) q) := congrArg x1 e2
  have h3 : k0_pay2 (F := Ideal) x3 (ix1 k') = x3 (ix2 (0 : Fin 1) k') := by
    unfold k0_pay2
    exact shapeCast_1a_a_apply x3 _ k'
  have h2 : k0_pay3 (F := Ideal) x2 = x2 := by
    unfold k0_pay3
    exact shapeCast_self x2 _
  rw [h0, h1, h3, h2]

/-- THE OUTPUT BLOCK after the body is `blockOut` of the input blocks. -/
theorem body_eq (x0 : Vec Ideal S64x128x256 .f32) (x1 : Vec Ideal S64x128 .i32) (x2 : Vec Ideal S128x256 .f32)
    (x3 : Vec Ideal S1x256 .f32) (x4 x5 : Vec Ideal S256 .f32) :
    out0_6 (F := Ideal) x0 x1 x2 x3 x4 x5 = blockOut x0 x1 x2 x3 x4 x5 := by
  funext y
  unfold out0_6
  simp only [View.ld_unit_zero (S := S256) hz1, View.ld_unit_zero (S := S1x256) hz2,
    View.ld_unit_zero (S := S128x256) hz2]
  rw [← Band.split_eq, Band.band6_eq, Band.band5_eq, Band.band4_eq, Band.band3_eq, Band.band2_eq, Band.band0_eq]
  refine View.canon_apply_of_pieces (blockOut x0 x1 x2 x3 x4 x5) _ ?_ y (cover0_6 _ _ _ _ _ _ _ _ y)
  intro pc hpc x
  simp only [List.mem_cons, List.not_mem_nil, or_false] at hpc
  rcases hpc with rfl | rfl | rfl | rfl | rfl | rfl | rfl | rfl
  · exact band_piece 56 (by omega) _ _ x0 x1 x2 x3 x4 x5 x
  · exact band_piece 48 (by omega) _ _ x0 x1 x2 x3 x4 x5 x
  · exact band_piece 40 (by omega) _ _ x0 x1 x2 x3 x4 x5 x
  · exact band_piece 32 (by omega) _ _ x0 x1 x2 x3 x4 x5 x
  · exact band_piece 24 (by omega) _ _ x0 x1 x2 x3 x4 x5 x
  · exact band_piece 16 (by omega) _ _ x0 x1 x2 x3 x4 x5 x
  · exact band_piece 8 (by omega) _ _ x0 x1 x2 x3 x4 x5 x
  · exact band_piece 0 (by omega) _ _ x0 x1 x2 x3 x4 x5 x

end Cert.KernelIdeal.Block

end
-- ==== Proof.Whole.lean ====
/-
  The result array, entry by entry, from the argument arrays.

  At batch row b, position t and feature k the result is the normalized row
      x(k') = emb(b, t, k') + 0.3 · ((resp(b, t) · 0.25) · w(k', 0)) + bias(t, k')
  read at k, scaled by γ(k) and shifted by β(k).  The positional bias table [2048, 256] is a parameter: both programs
  compute it from the relative-position embeddings by the same host operations, so it is never opened.
-/
import proofs.«165619_j77876347011121_2_alg».proof.Proof.Norm
import Idealize.ShloMosaic.Lib.ValueIdx

noncomputable section

namespace Cert.Norm

open Idealize.ShloMosaic Idealize.ShloMosaic.ValueIdx

/-- Entry (b, t, k) of the result. -/
def entry (emb : (⟨3, ![64, 2048, 256]⟩ : Shape).Idx → EReal) (resp : (⟨2, ![64, 2048]⟩ : Shape).Idx → BitVec 32)
    (bias : (⟨2, ![2048, 256]⟩ : Shape).Idx → EReal) (w : (⟨2, ![256, 1]⟩ : Shape).Idx → EReal)
    (g β : (⟨1, ![256]⟩ : Shape).Idx → EReal) (b : Fin 64) (t : Fin 2048) (k : Fin 256) : EReal :=
  normalized (fun k' => shifted (emb (ix3 b t k')) (FloatOps.sitofp (F := Ideal) .f32 (resp (ix2 b t)))
      (Ideal.ofBits .f32 0x3E800000#32) (w (ix2 k' (0 : Fin 1))) (bias (ix2 t k'))) (g (ix1 k)) (β (ix1 k)) k

/-- The result array as a function of its index. -/
def result (emb : (⟨3, ![64, 2048, 256]⟩ : Shape).Idx → EReal) (resp : (⟨2, ![64, 2048]⟩ : Shape).Idx → BitVec 32)
    (bias : (⟨2, ![2048, 256]⟩ : Shape).Idx → EReal) (w : (⟨2, ![256, 1]⟩ : Shape).Idx → EReal)
    (g β : (⟨1, ![256]⟩ : Shape).Idx → EReal) : (⟨3, ![64, 2048, 256]⟩ : Shape).Idx → EReal :=
  fun i => entry emb resp bias w g β (i 0) (i 1) (i 2)

end Cert.Norm

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.HostSide.lean ====
/-
  The two arrays the host prepares for the kernel's region.

  Before the region the host computes the positional bias table from the relative-position embeddings, by the very
  operations the reference uses for its own table — a validity mask of the window offsets, its product with the
  embeddings, the factor 0.15 — so the table the region finds is the reference's stage of the same argument, operation
  for operation.  It also lays the [256, 1] weights out as a [1, 256] row; the row's entry (0, k) is the weight (k, 0).
-/
import proofs.«165619_j77876347011121_2_alg».proof.Proof.Gen.KernelIdeal.Frame
import proofs.«165619_j77876347011121_2_alg».proof.Proof.Gen.ReferenceIdeal.Read
import proofs.«165619_j77876347011121_2_alg».proof.Proof.LibColumns
import Idealize.ShloMosaic.Lib.StableHlo.Run
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The bias table the region finds is the reference's table of the same relative-position embeddings. -/
theorem bias_table (c : Dev nD) :
    (V m c main_v22 : S2048x256.Idx → EReal)
      = Cert.ReferenceIdeal.Read.val_main_v34 (F := Ideal) (m ((c : Thread nD τ).loc main_arg2)) := by
  dsimp only [V, hostOps0]
  after_results_simp
  rfl

/-- The weight row the region finds is the weights cast to a vector and then to a row. -/
theorem weight_row (c : Dev nD) :
    (V m c main_v24 : S1x256.Idx → EReal)
      = shapeCast S1x256 (shapeCast S256 (m ((c : Thread nD τ).loc main_arg3) : S256x1.Idx → EReal)
          shapeCasts_S256x1_S256) shapeCasts_S256_S1x256 := by
  dsimp only [V, hostOps0]
  after_results
  rfl

/-- Entry (0, k) of the weight row is the weight (k, 0). -/
theorem weight_row_apply (c : Dev nD) (k : Fin 256) :
    (V m c main_v24 : S1x256.Idx → EReal) (ix2 (0 : Fin 1) k)
      = (m ((c : Thread nD τ).loc main_arg3) : S256x1.Idx → EReal) (ix2 k (0 : Fin 1)) := by
  rw [weight_row]
  exact (shapeCast_a_1a_apply _ _ 0 k).trans (LibColumns.shapeCast_a1_a_apply _ _ k)

end Cert.KernelIdeal.HostSide

end
-- ==== Proof.Flush.lean ====
/-
  From the blocks to the result array.

  The grid has 16 points; point t takes positions 128t … 128t + 127 of every batch row: the embeddings block
  [64, 128, 256], the responses block [64, 128] and the bias block [128, 256] at those positions, and the whole weight
  row, γ and β.  What it writes back is therefore the shared result restricted to those positions, and the 16 blocks
  tile the position axis: position s lies in the block of point s / 128.  So after the run the result array is the
  shared result of the launch arrays, over the bias table the host computed.
-/
import proofs.«165619_j77876347011121_2_alg».proof.Proof.Gen.KernelIdeal.Value
import proofs.«165619_j77876347011121_2_alg».proof.Proof.Block
import proofs.«165619_j77876347011121_2_alg».proof.Proof.Whole
import proofs.«165619_j77876347011121_2_alg».proof.Proof.HostSide
import Idealize.ShloMosaic.Lib.Pipeline.Value

noncomputable section

namespace Cert.KernelIdeal.Flush

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array of the launch memory on core `c`. -/
def outArr (c : Dev nD) : S64x2048x256.Idx → EReal :=
  Norm.result (m ((c : Thread nD τ).loc main_arg0)) (m ((c : Thread nD τ).loc main_arg1))
    (Cert.ReferenceIdeal.Read.val_main_v34 (F := Ideal) (m ((c : Thread nD τ).loc main_arg2)))
    (m ((c : Thread nD τ).loc main_arg3)) (m ((c : Thread nD τ).loc main_arg4)) (m ((c : Thread nD τ).loc main_arg5))

/-- The printed index maps, decided over the 16 points: point `t` is block `t` along the position axis of the
    embeddings, the responses, the bias table and the result, and block 0 on every other axis. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = t.val
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 3) = 0 ∧ win0_6.index t (1 : Fin 3) = t.val ∧ win0_6.index t (2 : Fin 3) = 0 :=
  (by decide +kernel : ∀ t : Fin grid0.N, _)

/-! ## Each input block, read at an entry, is the array at the block's place -/

theorem blk0 (c : Dev nD) (t : Fin cfg0.N) (b : Fin 64) (q : Fin 128) (k : Fin 256) (s : Fin 2048)
    (hs : s.val = 128 * t.val + q.val) :
    (iblk m c 0 t : Vec Ideal S64x128x256 .f32) (ix3 b q k)
      = (m ((c : Thread nD τ).loc main_arg0) : S64x2048x256.Idx → EReal) (ix3 b s k) := by
  obtain ⟨e0, e1, e2, -⟩ := idx_facts t
  unfold iblk
  rw [View.read_apply]
  show V m c main_arg0 (((cfg0.win 0).blk t).view.emb (ix3 b q k)) = _
  rw [V_main_arg0]
  refine congrArg (m ((c : Thread nD τ).loc main_arg0)) ?_
  funext a; apply Fin.ext
  match a with
  | ⟨0, _⟩ => show win0_0.index t (0 : Fin 3) * 64 + 1 * b.val = b.val; rw [e0]; omega
  | ⟨1, _⟩ => show win0_0.index t (1 : Fin 3) * 128 + 1 * q.val = s.val; rw [e1, hs]; omega
  | ⟨2, _⟩ => show win0_0.index t (2 : Fin 3) * 256 + 1 * k.val = k.val; rw [e2]; omega

theorem blk1 (c : Dev nD) (t : Fin cfg0.N) (b : Fin 64) (q : Fin 128) (s : Fin 2048)
    (hs : s.val = 128 * t.val + q.val) :
    (iblk m c 1 t : Vec Ideal S64x128 .i32) (ix2 b q)
      = (m ((c : Thread nD τ).loc main_arg1) : S64x2048.Idx → BitVec 32) (ix2 b s) := by
  obtain ⟨-, -, -, e0, e1, -⟩ := idx_facts t
  unfold iblk
  rw [View.read_apply]
  show V m c main_arg1 (((cfg0.win 1).blk t).view.emb (ix2 b q)) = _
  rw [V_main_arg1]
  refine congrArg (m ((c : Thread nD τ).loc main_arg1)) ?_
  funext a; apply Fin.ext
  match a with
  | ⟨0, _⟩ => show win0_1.index t (0 : Fin 2) * 64 + 1 * b.val = b.val; rw [e0]; omega
  | ⟨1, _⟩ => show win0_1.index t (1 : Fin 2) * 128 + 1 * q.val = s.val; rw [e1, hs]; omega

theorem blk2 (c : Dev nD) (t : Fin cfg0.N) (q : Fin 128) (k : Fin 256) (s : Fin 2048)
    (hs : s.val = 128 * t.val + q.val) :
    (iblk m c 2 t : Vec Ideal S128x256 .f32) (ix2 q k)
      = Cert.ReferenceIdeal.Read.val_main_v34 (F := Ideal) (m ((c : Thread nD τ).loc main_arg2)) (ix2 s k) := by
  obtain ⟨-, -, -, -, -, e0, e1, -⟩ := idx_facts t
  unfold iblk
  rw [View.read_apply]
  show (V m c main_v22 : S2048x256.Idx → EReal) (((cfg0.win 2).blk t).view.emb (ix2 q k)) = _
  rw [HostSide.bias_table]
  refine congrArg (Cert.ReferenceIdeal.Read.val_main_v34 (F := Ideal) (m ((c : Thread nD τ).loc main_arg2))) ?_
  funext a; apply Fin.ext
  match a with
  | ⟨0, _⟩ => show win0_2.index t (0 : Fin 2) * 128 + 1 * q.val = s.val; rw [e0, hs]; omega
  | ⟨1, _⟩ => show win0_2.index t (1 : Fin 2) * 256 + 1 * k.val = k.val; rw [e1]; omega

theorem blk3 (c : Dev nD) (t : Fin cfg0.N) (k : Fin 256) :
    (iblk m c 3 t : Vec Ideal S1x256 .f32) (ix2 (0 : Fin 1) k)
      = (m ((c : Thread nD τ).loc main_arg3) : S256x1.Idx → EReal) (ix2 k (0 : Fin 1)) := by
  obtain ⟨-, -, -, -, -, -, -, e0, e1, -⟩ := idx_facts t
  refine Eq.trans ?_ (HostSide.weight_row_apply m c k)
  unfold iblk
  rw [View.read_apply]
  show (V m c main_v24 : S1x256.Idx → EReal) (((cfg0.win 3).blk t).view.emb (ix2 (0 : Fin 1) k)) = _
  refine congrArg (V m c main_v24 : S1x256.Idx → EReal) ?_
  funext a; apply Fin.ext
  match a with
  | ⟨0, _⟩ => show win0_3.index t (0 : Fin 2) * 1 + 1 * 0 = 0; rw [e0]
  | ⟨1, _⟩ => show win0_3.index t (1 : Fin 2) * 256 + 1 * k.val = k.val; rw [e1]; omega

theorem blk4 (c : Dev nD) (t : Fin cfg0.N) (k : Fin 256) :
    (iblk m c 4 t : Vec Ideal S256 .f32) (ix1 k)
      = (m ((c : Thread nD τ).loc main_arg4) : S256.Idx → EReal) (ix1 k) := by
  obtain ⟨-, -, -, -, -, -, -, -, -, e0, -⟩ := idx_facts t
  unfold iblk
  rw [View.read_apply]
  show V m c main_arg4 (((cfg0.win 4).blk t).view.emb (ix1 k)) = _
  rw [V_main_arg4]
  refine congrArg (m ((c : Thread nD τ).loc main_arg4)) ?_
  funext a; apply Fin.ext
  match a with
  | ⟨0, _⟩ => show win0_4.index t (0 : Fin 1) * 256 + 1 * k.val = k.val; rw [e0]; omega

theorem blk5 (c : Dev nD) (t : Fin cfg0.N) (k : Fin 256) :
    (iblk m c 5 t : Vec Ideal S256 .f32) (ix1 k)
      = (m ((c : Thread nD τ).loc main_arg5) : S256.Idx → EReal) (ix1 k) := by
  obtain ⟨-, -, -, -, -, -, -, -, -, -, e0, -⟩ := idx_facts t
  unfold iblk
  rw [View.read_apply]
  show V m c main_arg5 (((cfg0.win 5).blk t).view.emb (ix1 k)) = _
  rw [V_main_arg5]
  refine congrArg (m ((c : Thread nD τ).loc main_arg5)) ?_
  funext a; apply Fin.ext
  match a with
  | ⟨0, _⟩ => show win0_5.index t (0 : Fin 1) * 256 + 1 * k.val = k.val; rw [e0]; omega

/-! ## A block's entry is the result's entry at the block's place -/

/-- If six blocks hold, along row (b, q), what six arrays hold along row (b, s), then the block's entry (b, q, k)
    is the result's entry (b, s, k). -/
theorem entry_of_blocks (A0 : (⟨3, ![64, 2048, 256]⟩ : Shape).Idx → EReal)
    (A1 : (⟨2, ![64, 2048]⟩ : Shape).Idx → BitVec 32) (A2 : (⟨2, ![2048, 256]⟩ : Shape).Idx → EReal)
    (A3 : (⟨2, ![256, 1]⟩ : Shape).Idx → EReal) (A4 A5 : (⟨1, ![256]⟩ : Shape).Idx → EReal)
    (x0 : Vec Ideal S64x128x256 .f32) (x1 : Vec Ideal S64x128 .i32) (x2 : Vec Ideal S128x256 .f32)
    (x3 : Vec Ideal S1x256 .f32) (x4 x5 : Vec Ideal S256 .f32)
    (b : Fin 64) (q : Fin 128) (k : Fin 256) (s : Fin 2048)
    (h0 : ∀ k' : Fin 256, x0 (ix3 b q k') = A0 (ix3 b s k')) (h1 : x1 (ix2 b q) = A1 (ix2 b s))
    (h2 : ∀ k' : Fin 256, x2 (ix2 q k') = A2 (ix2 s k'))
    (h3 : ∀ k' : Fin 256, x3 (ix2 (0 : Fin 1) k') = A3 (ix2 k' (0 : Fin 1)))
    (h4 : x4 (ix1 k) = A4 (ix1 k)) (h5 : x5 (ix1 k) = A5 (ix1 k)) :
    Block.blockEntry x0 x1 x2 x3 x4 x5 b q k = Norm.entry A0 A1 A2 A3 A4 A5 b s k := by
  unfold Block.blockEntry Norm.entry
  rw [h4, h5, h1]
  refine congrArg (fun f => Norm.normalized f (A4 (ix1 k)) (A5 (ix1 k)) k) (funext fun k' => ?_)
  rw [h0, h2, h3]

/-- WHAT POINT `t` WRITES BACK is block `t` of the result array. -/
theorem flushed_eq (c : Dev nD) (t : Fin cfg0.N) :
    (dats m 0 c).flushed 6 t = ((cfg0.win 6).blk t).view.read (Elt Ideal) (outArr m c) := by
  rw [Value.flushed6, Block.body_eq]
  obtain ⟨-, -, -, -, -, -, -, -, -, -, -, e0, e1, e2⟩ := idx_facts t
  funext j
  have hj0 : (j 0).val < 64 := (j 0).isLt
  have hj1 : (j 1).val < 128 := (j 1).isLt
  have hj2 : (j 2).val < 256 := (j 2).isLt
  have ht : t.val < 16 := t.isLt
  have hs : 128 * t.val + (j 1).val < 2048 := by omega
  have he : ((cfg0.win 6).blk t).view.emb j
      = ix3 (⟨(j 0).val, hj0⟩ : Fin 64) (⟨128 * t.val + (j 1).val, hs⟩ : Fin 2048) (⟨(j 2).val, hj2⟩ : Fin 256) := by
    funext a; apply Fin.ext
    match a with
    | ⟨0, _⟩ => show win0_6.index t (0 : Fin 3) * 64 + 1 * (j 0).val = (j 0).val; rw [e0]; omega
    | ⟨1, _⟩ => show win0_6.index t (1 : Fin 3) * 128 + 1 * (j 1).val = 128 * t.val + (j 1).val; rw [e1]; omega
    | ⟨2, _⟩ => show win0_6.index t (2 : Fin 3) * 256 + 1 * (j 2).val = (j 2).val; rw [e2]; omega
  show Block.blockEntry (iblk m c 0 t) (iblk m c 1 t) (iblk m c 2 t) (iblk m c 3 t) (iblk m c 4 t) (iblk m c 5 t)
      (⟨(j 0).val, hj0⟩ : Fin 64) (⟨(j 1).val, hj1⟩ : Fin 128) (⟨(j 2).val, hj2⟩ : Fin 256)
    = outArr m c (((cfg0.win 6).blk t).view.emb j)
  rw [he]
  show _ = Norm.entry _ _ _ _ _ _ (⟨(j 0).val, hj0⟩ : Fin 64) (⟨128 * t.val + (j 1).val, hs⟩ : Fin 2048)
      (⟨(j 2).val, hj2⟩ : Fin 256)
  exact entry_of_blocks _ _ _ _ _ _ (iblk m c 0 t) (iblk m c 1 t) (iblk m c 2 t) (iblk m c 3 t) (iblk m c 4 t)
    (iblk m c 5 t) _ _ _ _ (fun k' => blk0 m c t _ _ k' _ rfl) (blk1 m c t _ _ _ rfl)
    (fun k' => blk2 m c t _ k' _ rfl) (fun k' => blk3 m c t k') (blk4 m c t _) (blk5 m c t _)

/-- Every index of the result array lies in some point's block: position s in the block of point s / 128. -/
theorem cover (i : S64x2048x256.Idx) :
    ∃ t : Fin cfg0.N, (cfg0.win 6).flush t = true ∧ i ∈ ((cfg0.win 6).blk t).view.set := by
  have hi0 : (i 0).val < 64 := (i 0).isLt
  have hi1 : (i 1).val < 2048 := (i 1).isLt
  have hi2 : (i 2).val < 256 := (i 2).isLt
  obtain ⟨t, ht⟩ : ∃ t : Fin cfg0.N, t.val = (i 1).val / 128 :=
    ⟨⟨(i 1).val / 128, by show (i 1).val / 128 < 16; omega⟩, rfl⟩
  obtain ⟨-, -, -, -, -, -, -, -, -, -, -, e0, e1, e2⟩ := idx_facts t
  refine ⟨t, flush0_6 t, ?_⟩
  show i ∈ ((View.whole main_v25).slice (win0_6.rect t)).set
  rw [View.set_slice_whole, Rect.mem_set_unit]
  intro a
  match a with
  | ⟨0, _⟩ =>
    show win0_6.index t (0 : Fin 3) * 64 ≤ (i 0).val ∧ (i 0).val < win0_6.index t (0 : Fin 3) * 64 + 64
    rw [e0]; omega
  | ⟨1, _⟩ =>
    show win0_6.index t (1 : Fin 3) * 128 ≤ (i 1).val ∧ (i 1).val < win0_6.index t (1 : Fin 3) * 128 + 128
    rw [e1, ht]; omega
  | ⟨2, _⟩ =>
    show win0_6.index t (2 : Fin 3) * 256 ≤ (i 2).val ∧ (i 2).val < win0_6.index t (2 : Fin 3) * 256 + 256
    rw [e2]; omega

/-- THE RESULT ARRAY after the run. -/
theorem final (c : Dev nD) : (dats m 0 c).arrAt 6 cfg0.N = outArr m c :=
  (dats m 0 c).arrAt_eq_of_cover 6 (outArr m c) (fun t _ => flushed_eq m c t) cover

/-- The kernel's run, read: the result array at the shared result of the launch arrays, the arguments unchanged. -/
theorem run : θ_run defs (onTc (τ := τ) (main (F := Ideal))) ⟨m, fun _ => 0, ρ⟩ fun r => ∀ c : Dev nD,
      r.2.mem ((c : Thread nD τ).loc main_v25) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Flush

end
-- ==== Proof.RefEntry.lean ====
/-
  The reference's result at an entry.

  The reference works on whole arrays: it divides the responses by 4, multiplies by the weights and by 0.3, adds the
  embeddings and the positional bias table, and normalizes every row of 256 features — the row mean and the mean squared
  deviation taken as sums over the feature axis divided by 256.  Read at (b, t, k), operation by operation, its result
  is the normalized row of  emb + 0.3 · ((resp / 4) · w) + bias ; and a quotient by 4 is the product with 0.25, so this
  is the entry both programs share.  The bias table is the reference's own stage, kept closed.
-/
import proofs.«165619_j77876347011121_2_alg».proof.Proof.Gen.ReferenceIdeal.Read
import proofs.«165619_j77876347011121_2_alg».proof.Proof.Whole
import Idealize.ShloMosaic.Lib.ValueIdx
import Idealize.ShloMosaic.PureOps.Ideal.Laws

noncomputable section

open scoped BigOperators

namespace Cert.ReferenceIdeal.Entry

open Cert.ReferenceIdeal Cert.ReferenceIdeal.Gen Cert.ReferenceIdeal.Read Idealize.ShloMosaic Idealize.ShloMosaic.ValueIdx

variable (x0 : (⟨S64x2048x256, .f32⟩ : BufTy).Contents (Elt Ideal)) (x1 : (⟨S64x2048, .i32⟩ : BufTy).Contents (Elt Ideal))
  (x2 : (⟨S11x256, .f32⟩ : BufTy).Contents (Elt Ideal)) (x3 : (⟨S256x1, .f32⟩ : BufTy).Contents (Elt Ideal))
  (x4 x5 : (⟨S256, .f32⟩ : BufTy).Contents (Elt Ideal))

/-- The scaled response spread over the features: at (b, t, k) the response (b, t) divided by 4. -/
theorem response_apply (b : Fin 64) (t : Fin 2048) (k : Fin 256) :
    val_main_v6 (F := Ideal) x1 (ix3 b t k)
      = Ideal.div (FloatOps.sitofp (F := Ideal) .f32 (x1 (ix2 b t))) (Ideal.ofBits .f32 0x40800000#32) := by
  have e : idx_main_v3 (idx_main_v6 (ix3 b t k)) = ix2 b t := by
    funext a; apply Fin.ext
    match a with
    | ⟨0, _⟩ => rfl
    | ⟨1, _⟩ => rfl
  rw [val_main_v6_apply, val_main_v3_apply, e, val_main_v2_apply, val_main_v0_apply, val_main_v1_apply,
    val_main_cst_apply]
  rfl

/-- The weights spread over batch rows and positions: at (b, t, k) the weight (k, 0). -/
theorem weight_apply (b : Fin 64) (t : Fin 2048) (k : Fin 256) :
    val_main_v7 (F := Ideal) x3 (ix3 b t k) = x3 (ix2 k (0 : Fin 1)) := by
  have e : idx_main_v4 (idx_main_v5 (idx_main_v7 (ix3 b t k))) = ix2 k (0 : Fin 1) := by
    funext a; apply Fin.ext
    match a with
    | ⟨0, _⟩ => show k.val / 1 = k.val; exact Nat.div_one _
    | ⟨1, _⟩ => rfl
  rw [val_main_v7_apply, val_main_v5_apply, val_main_v4_apply, e]

/-- The bias table repeated over the batch rows: at (b, t, k) the table's entry (t, k). -/
theorem bias_apply (b : Fin 64) (t : Fin 2048) (k : Fin 256) :
    val_main_v36 (F := Ideal) x2 (ix3 b t k) = val_main_v34 (F := Ideal) x2 (ix2 t k) := by
  have e : idx_main_v35 (idx_main_v36 (ix3 b t k)) = ix2 t k := by
    funext a; apply Fin.ext
    match a with
    | ⟨0, _⟩ => rfl
    | ⟨1, _⟩ => rfl
  rw [val_main_v36_apply, val_main_v35_apply, e]

/-- The row before normalization, at an entry. -/
theorem shifted_apply (b : Fin 64) (t : Fin 2048) (k : Fin 256) :
    val_main_v37 (F := Ideal) x0 x1 x2 x3 (ix3 b t k)
      = Norm.shifted (x0 (ix3 b t k)) (FloatOps.sitofp (F := Ideal) .f32 (x1 (ix2 b t)))
          (Ideal.ofBits .f32 0x3E800000#32) (x3 (ix2 k (0 : Fin 1))) (val_main_v34 (F := Ideal) x2 (ix2 t k)) := by
  rw [val_main_v37_apply, val_main_v11_apply, val_main_v10_apply, val_main_v9_apply, val_main_cst_0_apply,
    val_main_v8_apply, response_apply, weight_apply, bias_apply, Norm.div_four]
  rfl

/-- The row mean, kept as a column: at (b, t, u) the mean of row (b, t). -/
theorem mean_apply (b : Fin 64) (t : Fin 2048) (u : Fin 1) :
    val_main_v41 (F := Ideal) x0 x1 x2 x3 (ix3 b t u)
      = Norm.mean (fun k' => val_main_v37 (F := Ideal) x0 x1 x2 x3 (ix3 b t k')) := by
  have e : idx_main_v39 (ix3 b t u) = ix2 b t := by
    funext a; apply Fin.ext
    match a with
    | ⟨0, _⟩ => rfl
    | ⟨1, _⟩ => rfl
  have e' : ∀ k' : Fin 256, idx_main_v38 (ix2 b t) k' = ix3 b t k' := fun k' => by
    funext a; apply Fin.ext
    match a with
    | ⟨0, _⟩ => rfl
    | ⟨1, _⟩ => rfl
    | ⟨2, _⟩ => rfl
  rw [val_main_v41_apply, val_main_v39_apply, e, val_main_v38_apply, val_main_v40_apply, val_main_cst_6_apply,
    val_main_cst_5_apply]
  simp only [e', Ideal.ofBits_def, Ideal.ofBits_zero_f32, zero_add, Ideal.hostDivf_def]
  rfl

/-- A row entry less its row mean. -/
theorem centered_apply (b : Fin 64) (t : Fin 2048) (k : Fin 256) :
    val_main_v43 (F := Ideal) x0 x1 x2 x3 (ix3 b t k)
      = val_main_v37 (F := Ideal) x0 x1 x2 x3 (ix3 b t k)
        - Norm.mean (fun k' => val_main_v37 (F := Ideal) x0 x1 x2 x3 (ix3 b t k')) := by
  have e : idx_main_v42 (ix3 b t k) = ix3 b t (0 : Fin 1) := by
    funext a; apply Fin.ext
    match a with
    | ⟨0, _⟩ => rfl
    | ⟨1, _⟩ => rfl
    | ⟨2, _⟩ => rfl
  rw [val_main_v43_apply, val_main_v42_apply, e, mean_apply]
  rfl

/-- The same, as the reference computes it a second time for the product with the inverse deviation. -/
theorem centered_apply' (b : Fin 64) (t : Fin 2048) (k : Fin 256) :
    val_main_v50 (F := Ideal) x0 x1 x2 x3 (ix3 b t k)
      = val_main_v37 (F := Ideal) x0 x1 x2 x3 (ix3 b t k)
        - Norm.mean (fun k' => val_main_v37 (F := Ideal) x0 x1 x2 x3 (ix3 b t k')) := by
  have e : idx_main_v49 (ix3 b t k) = ix3 b t (0 : Fin 1) := by
    funext a; apply Fin.ext
    match a with
    | ⟨0, _⟩ => rfl
    | ⟨1, _⟩ => rfl
    | ⟨2, _⟩ => rfl
  rw [val_main_v50_apply, val_main_v49_apply, e, mean_apply]
  rfl

/-- The inverse deviation of row (b, t), spread over the features. -/
theorem inverse_deviation_apply (b : Fin 64) (t : Fin 2048) (k : Fin 256) :
    val_main_v54 (F := Ideal) x0 x1 x2 x3 (ix3 b t k)
      = Ideal.rsqrt (Norm.mean (fun k' =>
          (val_main_v37 (F := Ideal) x0 x1 x2 x3 (ix3 b t k')
            - Norm.mean (fun k'' => val_main_v37 (F := Ideal) x0 x1 x2 x3 (ix3 b t k'')))
          * (val_main_v37 (F := Ideal) x0 x1 x2 x3 (ix3 b t k')
            - Norm.mean (fun k'' => val_main_v37 (F := Ideal) x0 x1 x2 x3 (ix3 b t k''))))
        + Ideal.ofBits .f32 0x3727C5AC#32) := by
  have e : idx_main_v54 (ix3 b t k) = ix3 b t (0 : Fin 1) := by
    funext a; apply Fin.ext
    match a with
    | ⟨0, _⟩ => rfl
    | ⟨1, _⟩ => rfl
    | ⟨2, _⟩ => rfl
  have e1 : idx_main_v46 (ix3 b t (0 : Fin 1)) = ix2 b t := by
    funext a; apply Fin.ext
    match a with
    | ⟨0, _⟩ => rfl
    | ⟨1, _⟩ => rfl
  have e' : ∀ k' : Fin 256, idx_main_v45 (ix2 b t) k' = ix3 b t k' := fun k' => by
    funext a; apply Fin.ext
    match a with
    | ⟨0, _⟩ => rfl
    | ⟨1, _⟩ => rfl
    | ⟨2, _⟩ => rfl
  rw [val_main_v54_apply, e, val_main_v53_apply, val_main_v52_apply, val_main_v48_apply, val_main_v46_apply, e1,
    val_main_v45_apply, val_main_v47_apply, val_main_cst_8_apply, val_main_v51_apply, val_main_cst_9_apply,
    val_main_cst_7_apply]
  simp only [e', val_main_v44_apply, centered_apply, Ideal.ofBits_def, Ideal.ofBits_zero_f32, zero_add,
    Ideal.hostDivf_def, Ideal.mulf_def, Ideal.addf_def, Ideal.hostUnary_rsqrt_def]
  rfl

/-- THE REFERENCE'S RESULT AT AN ENTRY is the shared entry, over the reference's own bias table. -/
theorem result_apply (b : Fin 64) (t : Fin 2048) (k : Fin 256) :
    val_main_v61 (F := Ideal) x0 x1 x2 x3 x4 x5 (ix3 b t k)
      = Norm.entry x0 x1 (val_main_v34 (F := Ideal) x2) x3 x4 x5 b t k := by
  have eg : idx_main_v56 (idx_main_v57 (ix3 b t k)) = ix1 k := by
    funext a; apply Fin.ext
    match a with
    | ⟨0, _⟩ => rfl
  have eb : idx_main_v59 (idx_main_v60 (ix3 b t k)) = ix1 k := by
    funext a; apply Fin.ext
    match a with
    | ⟨0, _⟩ => rfl
  rw [val_main_v61_apply, val_main_v58_apply, val_main_v55_apply, centered_apply', inverse_deviation_apply,
    val_main_v57_apply, val_main_v56_apply, eg, val_main_v60_apply, val_main_v59_apply, eb]
  unfold Norm.entry
  rw [← funext (shifted_apply x0 x1 x2 x3 b t)]
  rfl

/-- So the reference's result array is the shared result, over its own bias table. -/
theorem result_eq : val_main_v61 (F := Ideal) x0 x1 x2 x3 x4 x5
    = Norm.result x0 x1 (val_main_v34 (F := Ideal) x2) x3 x4 x5 := by
  funext i
  obtain ⟨b, t, k, rfl⟩ : ∃ (b : Fin 64) (t : Fin 2048) (k : Fin 256), i = ix3 b t k := ⟨i 0, i 1, i 2, eq_ix3 i⟩
  exact result_apply x0 x1 x2 x3 x4 x5 b t k

end Cert.ReferenceIdeal.Entry

end
-- ==== Proof.lean ====
/-
  A windowed relative-position bias added to embeddings and responses, then a layer normalization over 256 features:
  a kernel against its array-level reference, equal on the extended reals.

  Both programs build, for every batch row b and position t, the row
      x(k) = emb(b, t, k) + 0.3 · (ρ(b, t) · w(k)) + bias(t, k)
  and return  (x(k) − μ) · (σ² + ε)^(−1/2) · γ(k) + β(k),  μ and σ² the mean and the mean squared deviation of the row.
  The bias table comes from the same host operations in both; the row sums are the same sums over the feature axis,
  whatever the tiling.  The kernel walks 16 blocks of 128 positions, each in eight bands of eight batch rows, and
  takes ρ = resp · 0.25 where the reference takes ρ = resp / 4: the word of 0.25 is the real 1/4 and the word of 4 the
  real 4, and a quotient by 4 is the product with 1/4 on every extended real — the one law that joins the two sides,
  and one that needs no finiteness, so the precondition is never opened.

  The frames of the two kernel programs and the reading of the kernel's run block by block are the generated modules';
  the reference's run and its reading operation by operation likewise.  The modules beside this one say what a band
  computes at an entry, that the eight stored bands make one function of the block, that the 16 blocks make the result
  array, and that the reference's composed operations read the same entry.  The idealization rewrote nothing, so that
  conjunct is trivial.
-/
import proofs.«165619_j77876347011121_2_alg».proof.Defs
import proofs.«165619_j77876347011121_2_alg».proof.Proof.Gen.Kernel
import proofs.«165619_j77876347011121_2_alg».proof.Proof.Gen.Kernel.Frame
import proofs.«165619_j77876347011121_2_alg».proof.Proof.Gen.KernelIdeal
import proofs.«165619_j77876347011121_2_alg».proof.Proof.Gen.KernelIdeal.Frame
import proofs.«165619_j77876347011121_2_alg».proof.Proof.Gen.KernelIdeal.Value
import proofs.«165619_j77876347011121_2_alg».proof.Proof.Gen.ReferenceIdeal
import proofs.«165619_j77876347011121_2_alg».proof.Proof.Gen.ReferenceIdeal.Run
import proofs.«165619_j77876347011121_2_alg».proof.Proof.Gen.ReferenceIdeal.Read
import proofs.«165619_j77876347011121_2_alg».proof.Proof.Gen.Pre_finite_inputs
import proofs.«165619_j77876347011121_2_alg».proof.Proof.Flush
import proofs.«165619_j77876347011121_2_alg».proof.Proof.RefEntry
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result array ends at the shared result of its launch
    arrays, and the reference's at the same function of its own: equal arrays, entry by entry. -/
theorem algebraic : Cert.algebraic_KernelIdeal_ReferenceIdeal := by
  intro m ρ m' ρ' _ hagree
  refine ⟨fun c => Cert.KernelIdeal.Flush.outArr m c, Cert.KernelIdeal.Flush.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.ReferenceIdeal.Entry.result_eq]
  obtain ⟨h0, h1, h2, h3, h4, h5⟩ := hagree c
  rw [h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
